-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S64x128 : Shape := ⟨2, ![64, 128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x2048x64 .f32) (main_arg1 : FVec F S64x128 .f32) (main_arg2 : FVec F S64x128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  main_v13
-- ==== Kernel.lean ====
abbrev S16x2048x64 : Shape := ⟨3, ![16, 2048, 64]⟩
abbrev S64x128 : Shape := ⟨2, ![64, 128]⟩
abbrev S32768x64 : Shape := ⟨2, ![32768, 64]⟩
abbrev S32768x64x128 : Shape := ⟨3, ![32768, 64, 128]⟩
abbrev S512x64 : Shape := ⟨2, ![512, 64]⟩
abbrev S512x64x128 : Shape := ⟨3, ![512, 64, 128]⟩
abbrev S128x64 : Shape := ⟨2, ![128, 64]⟩
abbrev S128x64x1 : Shape := ⟨3, ![128, 64, 1]⟩
abbrev S1x64x128 : Shape := ⟨3, ![1, 64, 128]⟩
abbrev S128x64x128 : Shape := ⟨3, ![128, 64, 128]⟩
abbrev S16x2048x64x128 : Shape := ⟨4, ![16, 2048, 64, 128]⟩

abbrev nBuf : Space → Nat
  | .hbm => 6
  | .vmem => 6
  | .smem => 0
  | _ => 0

abbrev bufTy : (tb : Table) → Fin (tcTables nBuf tb) → BufTy
  | .hbm, ⟨0, _⟩ => ⟨S16x2048x64, .f32⟩
  | .hbm, ⟨1, _⟩ => ⟨S64x128, .f32⟩
  | .hbm, ⟨2, _⟩ => ⟨S64x128, .f32⟩
  | .hbm, ⟨3, _⟩ => ⟨S32768x64, .f32⟩
  | .hbm, ⟨4, _⟩ => ⟨S32768x64x128, .f32⟩
  | .hbm, ⟨5, _⟩ => ⟨S16x2048x64x128, .f32⟩
  | .local _ .vmem, ⟨0, _⟩ => ⟨S512x64, .f32⟩
  | .local _ .vmem, ⟨1, _⟩ => ⟨S512x64, .f32⟩
  | .local _ .vmem, ⟨2, _⟩ => ⟨S64x128, .f32⟩
  | .local _ .vmem, ⟨3, _⟩ => ⟨S64x128, .f32⟩
  | .local _ .vmem, ⟨4, _⟩ => ⟨S512x64x128, .f32⟩
  | .local _ .vmem, ⟨5, _⟩ => ⟨S512x64x128, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v3 : BitVec 32 := Scalar.muli arg5 c128_i32
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v3 : BitVec 32 := Scalar.muli arg5 c128_i32
  let v4 : BitVec 32 := v3
  let v5 : Index := Scalar.indexCast v4
  let c0_4 : Index := 0#32
  ![v5.toNat, 0]
def k0_off2 (k0_t1 : Fin k0_t1_loop.trips) : Fin 3 → Nat :=
  let c0_i32 : BitVec 32 := 0#32
  let c1_i32 : BitVec 32 := 1#32
  let arg5 : BitVec 32 := Scf.iv c0_i32 c1_i32 k0_t1
  let c128_i32 : BitVec 32 := 128#32
  let v3 : BitVec 32 := Scalar.muli arg5 c128_i32
  let v4 : BitVec 32 := v3
  let v16 : Index := Scalar.indexCast v4
  let c0_5 : Index := 0#32
  let c0_6 : Index := 0#32
  ![v16.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x2048x64_S32768x64 : S16x2048x64.ShapeCasts S32768x64
  inb_S64x128_S64x128_0_0 : ∀ a, (![0, 0] : Fin 2 → Nat) a + S64x128.size a ≤ S64x128.size a
  h_S64x128 : 0 < S64x128.numel
  h_S128x64 : 0 < S128x64.numel
  shapeCasts_S128x64_S128x64 : S128x64.ShapeCasts S128x64
  shapeCasts_S128x64_S128x64x1 : S128x64.ShapeCasts S128x64x1
  shapeCasts_S64x128_S1x64x128 : S64x128.ShapeCasts S1x64x128
  broadcasts_S128x64x1_S128x64x128 : S128x64x1.Broadcasts S128x64x128
  broadcasts_S1x64x128_S128x64x128 : S1x64x128.Broadcasts S128x64x128
  h_S128x64x128 : 0 < S128x64x128.numel
  shapeCasts_S32768x64x128_S16x2048x64x128 : S32768x64x128.ShapeCasts S16x2048x64x128
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x64.size a ≤ S512x64.size a
  k0_off2_inb : ∀ k0_t1 : Fin k0_t1_loop.trips, ∀ a, (k0_off2 k0_t1) a + S128x64x128.size a ≤ S512x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64x128.size a ≤ S32768x64x128.size a
  hwx0_3 : ∀ i : grid0.Coords, EltTy.bits .f32 = 32 ∨ (Rect.block (s := S32768x64x128) S512x64x128.size (cc0_transform_3 i) (hinb0_3 i)).WholeWords (EltTy.packing .f32)

variable [Facts₀]

abbrev win0_0 : Pipeline.Window sig grid0 :=
  Pipeline.Window.ofSpec (Memref.whole main_v0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S64x128 : Shape := ⟨2, ![64, 128]⟩
abbrev S16x2048x64x1 : Shape := ⟨4, ![16, 2048, 64, 1]⟩
abbrev S1x1x64x128 : Shape := ⟨4, ![1, 1, 64, 128]⟩
abbrev S16x2048x64x128 : Shape := ⟨4, ![16, 2048, 64, 128]⟩

abbrev nBuf : Space → Nat
  | .hbm => 11
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x128, .f32⟩
  | .hbm, ⟨2, _⟩ => ⟨S64x128, .f32⟩
  | .hbm, ⟨3, _⟩ => ⟨S16x2048x64x1, .f32⟩
  | .hbm, ⟨4, _⟩ => ⟨S1x1x64x128, .f32⟩
  | .hbm, ⟨5, _⟩ => ⟨S16x2048x64x128, .f32⟩
  | .hbm, ⟨6, _⟩ => ⟨S16x2048x64x128, .f32⟩
  | .hbm, ⟨7, _⟩ => ⟨S16x2048x64x128, .f32⟩
  | .hbm, ⟨8, _⟩ => ⟨S1x1x64x128, .f32⟩
  | .hbm, ⟨9, _⟩ => ⟨S16x2048x64x128, .f32⟩
  | .hbm, ⟨10, _⟩ => ⟨S16x2048x64x128, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16x2048x64_S16x2048x64x1_0_1_2 : S16x2048x64.BroadcastsInDim S16x2048x64x1 (![0, 1, 2] : Fin 3 → Fin S16x2048x64x1.rank)
  bcast_S64x128_S1x1x64x128_2_3 : S64x128.BroadcastsInDim S1x1x64x128 (![2, 3] : Fin 2 → Fin S1x1x64x128.rank)
  bcast_S16x2048x64x1_S16x2048x64x128_0_1_2_3 : S16x2048x64x1.BroadcastsInDim S16x2048x64x128 (![0, 1, 2, 3] : Fin 4 → Fin S16x2048x64x128.rank)
  bcast_S1x1x64x128_S16x2048x64x128_0_1_2_3 : S1x1x64x128.BroadcastsInDim S16x2048x64x128 (![0, 1, 2, 3] : Fin 4 → Fin S16x2048x64x128.rank)

variable [Facts₀]

class Facts : Prop extends Facts₀ where

variable [Facts]
-- ==== Proof.LibUnitAxes.lean ====
/-
  Three layout operations read at an index given by coordinates, for any extents: a trailing unit axis
  added by a shape cast, and the two broadcasts that spread a rank-3 array along its one unit axis
  (the last axis, or the first). Each is the library's general lemma for the operation with both
  indices written out by coordinates and the arithmetic of the positions discharged.
-/
import Idealize.ShloMosaic.Lib.Pipeline.Value
import Idealize.ShloMosaic.Lib.ValueIdx

namespace Cert.LibUnitAxes

open Idealize.ShloMosaic Idealize.ShloMosaic.ValueIdx

variable {α : Type}

/-- An [a, b] array cast to [a, b, 1] reads, at (i, j, u), the operand at (i, j): the two indices have the
    same row-major position, since the new last coordinate u is 0. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, l), the operand at (i, j, 0): the value does
    not depend on the position l along the axis it is spread over. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [1, b, c] array broadcast to [a, b, c] reads, at (i, j, l), the operand's one slab at (0, j, l): the
    value does not depend on the row i. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

end Cert.LibUnitAxes
-- ==== Proof.Payload.lean ====
/-
  The arithmetic of the kernel's one store, read at an index. Per trip of its row loop the body loads 128
  rows of the x block (a [128, 64] array xs) and stores, over the same 128 rows of the output block,
  xs[:, :, None] * W[None, :, :] + b[None, :, :]. The two tables are given a leading unit axis and spread
  over the rows; xs is given a trailing unit axis and spread over the 128 embedding positions. So at
  (r, f, e) the stored value is xs(r, f) * W(f, e) + b(f, e), on the extended reals.
-/
import proofs.«118321_j31928786878606_2_alg».proof.Proof.Gen.KernelIdeal.Skeleton
import proofs.«118321_j31928786878606_2_alg».proof.Proof.LibUnitAxes
import Idealize.ShloMosaic.Lib.ValueLayout

noncomputable section

namespace Cert.KernelIdeal.Stored

open Idealize.ShloMosaic Idealize.ShloMosaic.ValueIdx Cert.KernelIdeal Cert.KernelIdeal.Gen Cert.LibUnitAxes

/-- The stored value at (r, f, e): the loaded row's feature times the weight, plus the bias. -/
theorem pay_apply (w b : Vec Ideal S64x128 .f32) (xs : Vec Ideal S128x64 .f32)
    (r : Fin 128) (f : Fin 64) (e : Fin 128) :
    k0_pay1 (F := Ideal) w b xs (ix3 r f e) = xs (ix2 r f) * w (ix2 f e) + b (ix2 f e) := by
  unfold k0_pay1
  -- the x rows: same-shape cast, trailing unit axis, spread along the embedding axis
  have hx : broadcastTo S128x64x128
      (shapeCast S128x64x1 (shapeCast S128x64 xs shapeCasts_S128x64_S128x64) shapeCasts_S128x64_S128x64x1)
      broadcasts_S128x64x1_S128x64x128 (ix3 r f e) = xs (ix2 r f) :=
    (broadcastTo_ab1_abc_apply _ _ r f e).trans
      ((shapeCast_ab_ab1_apply _ _ r f (0 : Fin 1)).trans (congrFun (shapeCast_self xs _) _))
  -- the weights: leading unit axis, spread along the rows
  have hw : broadcastTo S128x64x128 (shapeCast S1x64x128 w shapeCasts_S64x128_S1x64x128)
      broadcasts_S1x64x128_S128x64x128 (ix3 r f e) = w (ix2 f e) :=
    (broadcastTo_1bc_abc_apply _ _ r f e).trans (shapeCast_ab_1ab_apply _ _ (0 : Fin 1) f e)
  -- the bias: the same two steps
  have hb : broadcastTo S128x64x128 (shapeCast S1x64x128 b shapeCasts_S64x128_S1x64x128)
      broadcasts_S1x64x128_S128x64x128 (ix3 r f e) = b (ix2 f e) :=
    (broadcastTo_1bc_abc_apply _ _ r f e).trans (shapeCast_ab_1ab_apply _ _ (0 : Fin 1) f e)
  exact congrArg₂ (· + ·) (congrArg₂ (· * ·) hx hw) hb

end Cert.KernelIdeal.Stored

end
-- ==== Proof.Spec.lean ====
/-
  The function both programs compute: a per-feature affine embedding. For an input x of shape [16, 2048, 64]
  and tables W, b of shape [64, 128], entry (s, t, f, e) of the result is x(s, t, f) * W(f, e) + b(f, e)
  on the extended reals. The same rule is stated three times, over the three row layouts the proof meets:
  the result as the reference shapes it ([16, 2048, 64, 128]), the kernel's flat layout in which the
  16 * 2048 = 32768 rows (s, t) are one axis ([32768, 64, 128]), and one block of 512 consecutive rows
  ([512, 64, 128]). No law of the extended reals is needed to join the two programs: both multiply the
  same two numbers and add the same third, so the infinities raise no question and finiteness of the
  inputs is never used.
-/
import Idealize.ShloMosaic.PureOps.Ideal
import Idealize.ShloMosaic.Lib.ValueIdx

noncomputable section

namespace Cert.Embed

open Idealize.ShloMosaic Idealize.ShloMosaic.ValueIdx

/-- Entry (s, t, f, e) of the embedding: x(s, t, f) * W(f, e) + b(f, e). -/
def embed (x : (⟨3, ![16, 2048, 64]⟩ : Shape).Idx → EReal) (W b : (⟨2, ![64, 128]⟩ : Shape).Idx → EReal) :
    (⟨4, ![16, 2048, 64, 128]⟩ : Shape).Idx → EReal :=
  fun i => x (ix3 (i 0) (i 1) (i 2)) * W (ix2 (i 2) (i 3)) + b (ix2 (i 2) (i 3))

/-- The same over flattened rows: entry (r, f, e) is x(r, f) * W(f, e) + b(f, e), r one of the 32768 rows. -/
def embedRows (x : (⟨2, ![32768, 64]⟩ : Shape).Idx → EReal) (W b : (⟨2, ![64, 128]⟩ : Shape).Idx → EReal) :
    (⟨3, ![32768, 64, 128]⟩ : Shape).Idx → EReal :=
  fun j => x (ix2 (j 0) (j 1)) * W (ix2 (j 1) (j 2)) + b (ix2 (j 1) (j 2))

/-- The same over one block of 512 rows. -/
def embedBlock (x : (⟨2, ![512, 64]⟩ : Shape).Idx → EReal) (W b : (⟨2, ![64, 128]⟩ : Shape).Idx → EReal) :
    (⟨3, ![512, 64, 128]⟩ : Shape).Idx → EReal :=
  fun j => x (ix2 (j 0) (j 1)) * W (ix2 (j 1) (j 2)) + b (ix2 (j 1) (j 2))

end Cert.Embed

end
-- ==== Proof.Block.lean ====
/-
  What one grid point leaves in the output block. The body loads the two tables W and b whole, then runs a
  loop of four trips; trip k loads rows 128k .. 128k + 127 of the x block and stores, over the same rows of
  the output block, the tile x(r, f) * W(f, e) + b(f, e). The four stored tiles are disjoint and together
  fill the 512 rows, and every one of them is a restriction of ONE function of the block index, the
  embedding of the x block. A buffer written by pieces that all restrict one function and cover it holds
  that function, whatever the number and order of the pieces; that is the whole argument.
-/
import proofs.«118321_j31928786878606_2_alg».proof.Proof.Gen.KernelIdeal.Frame
import proofs.«118321_j31928786878606_2_alg».proof.Proof.Payload
import proofs.«118321_j31928786878606_2_alg».proof.Proof.Spec
import Idealize.ShloMosaic.Lib.Pipeline.Value

set_option maxRecDepth 16384

noncomputable section

namespace Cert.KernelIdeal.Block

open Idealize.ShloMosaic Idealize.ShloMosaic.TcCoe Idealize.ShloMosaic.ValueIdx Idealize.SL.Sem
open Cert.KernelIdeal Cert.KernelIdeal.Gen

/-! ## The stores of the run, for any float instance -/

section AnyInstance

variable {F : FTy → Type} [FloatOps F]

/-- Trip k stores exactly one tile: over rows 128k .. 128k + 127 of the output block, the body's arithmetic
    of the two tables and of the same rows of the x block. -/
theorem trip_stores (𝒱 : Variants) (c : Dev nD) (bd : Option 𝒱.V) (i : grid0.Coords) (arg1 : Memref sig .tc .vmem S512x64 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S512x64x128 .f32) (harg4 : arg4.IsWhole)
    (w b : Vec F S64x128 .f32) (X : BufTy.Contents (Elt F) arg1.view.ty) (k : Fin k0_t1_loop.trips) :
    tripL_k0_t1 (F := F) 𝒱 c bd i arg1 harg1 arg2 harg2 arg3 harg3 arg4 harg4 w b X k
      = [⟨Rect.unit (s := S512x64x128) (k0_off2 k) S128x64x128.size (k0_off2_inb k),
          k0_pay1 w b (View.readAt (Elt F) arg1.view (Rect.unit (s := S512x64) (k0_off1 k) S128x64.size (k0_off1_inb k)).toLoadRect X)⟩] := by
  unfold tripL_k0_t1 trip_k0_t1
  rfl

/-- A property of every trip's stores is a property of every store of the first n trips: the list of those
    stores is built trip by trip. -/
theorem stores_forall (Q : View.Piece (Elt F) S512x64x128 .f32 → Prop)
    (𝒱 : Variants) (c : Dev nD) (bd : Option 𝒱.V) (i : grid0.Coords) (arg1 : Memref sig .tc .vmem S512x64 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S512x64x128 .f32) (harg4 : arg4.IsWhole)
    (w b : Vec F S64x128 .f32) (X : BufTy.Contents (Elt F) arg1.view.ty)
    (hQ : ∀ (k : Fin k0_t1_loop.trips), ∀ p ∈ tripL_k0_t1 (F := F) 𝒱 c bd i arg1 harg1 arg2 harg2 arg3 harg3 arg4 harg4 w b X k, Q p) (n : ℕ) :
    ∀ p ∈ pb_k0_t1 (F := F) 𝒱 c bd i arg1 harg1 arg2 harg2 arg3 harg3 arg4 harg4 w b X n, Q p := by
  induction n with
  | zero =>
    intro p hp
    rw [pb_k0_t1.eq_1] at hp
    exact absurd hp List.not_mem_nil
  | succ n ih =>
    intro p hp
    rw [pb_k0_t1.eq_2] at hp
    unfold pb_k0_t1Step at hp
    split at hp
    · rcases List.mem_append.mp hp with h | h
      · exact hQ _ p h
      · exact ih p h
    · exact ih p hp

/-- The stores of the whole body are those of its loop's trips, over the two tables as loaded whole and the
    x block as the loop finds it. -/
theorem run_stores (c : Dev nD) (i : grid0.Coords) (arg1 : Memref sig .tc .vmem S512x64 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S512x64x128 .f32) (harg4 : arg4.IsWhole)
    (x0 : Vec F S512x64 .f32) (x1 : Vec F S64x128 .f32) (x2 : Vec F S64x128 .f32) :
    (kernelRun0_A (F := F) c i arg1 harg1 arg2 harg2 arg3 harg3 arg4 harg4 x0 x1 x2).1
      = pb_k0_t1 (F := F) Variants.none c none i arg1 harg1 arg2 harg2 arg3 harg3 arg4 harg4
          (View.readAt (Elt F) arg2.view (Rect.unit (s := S64x128) ![0, 0] S64x128.size inb_S64x128_S64x128_0_0).toLoadRect (harg2.unread x1))
          (View.readAt (Elt F) arg3.view (Rect.unit (s := S64x128) ![0, 0] S64x128.size inb_S64x128_S64x128_0_0).toLoadRect (harg3.unread x2))
          (harg1.unread x0) k0_t1_loop.trips := by
  unfold kernelRun0_A
  rfl

end AnyInstance

/-! ## The block, on the extended reals -/

theorem hz : (![0, 0] : Fin 2 → Nat) = fun _ => 0 := funext fun a => by fin_cases a <;> rfl

/-- Trip k's tile is the embedding of the x block restricted to rows 128k .. 128k + 127: the tile's entry
    (r, f, e) is x(128k + r, f) * W(f, e) + b(f, e), and (128k + r, f, e) is where the tile's rectangle
    places (r, f, e) in the block. -/
theorem tile_restricts (x0 : Vec Ideal S512x64 .f32) (w b : Vec Ideal S64x128 .f32) (k : Fin k0_t1_loop.trips)
    (y : S128x64x128.Idx) :
    k0_pay1 (F := Ideal) w b (View.ld x0 (Rect.unit (s := S512x64) (k0_off1 k) S128x64.size (k0_off1_inb k))) y
      = Cert.Embed.embedBlock x0 w b ((Rect.unit (s := S512x64x128) (k0_off2 k) S128x64x128.size (k0_off2_inb k)).emb y) := by
  obtain ⟨r, f, e, rfl⟩ : ∃ (r : Fin 128) (f : Fin 64) (e : Fin 128), y = ix3 r f e := ⟨y 0, y 1, y 2, eq_ix3 y⟩
  have a10 : k0_off1 k (0 : Fin 2) = 128 * k.val := by rw [k0_off1_eq k]; rfl
  have a11 : k0_off1 k (1 : Fin 2) = 0 := by rw [k0_off1_eq k]; rfl
  have a20 : k0_off2 k (0 : Fin 3) = 128 * k.val := by rw [k0_off2_eq k]; rfl
  have a21 : k0_off2 k (1 : Fin 3) = 0 := by rw [k0_off2_eq k]; rfl
  have a22 : k0_off2 k (2 : Fin 3) = 0 := by rw [k0_off2_eq k]; rfl
  refine (Stored.pay_apply w b _ r f e).trans ?_
  unfold Cert.Embed.embedBlock
  have hx : View.ld x0 (Rect.unit (s := S512x64) (k0_off1 k) S128x64.size (k0_off1_inb k)) (ix2 r f)
      = x0 (ix2 ((Rect.unit (s := S512x64x128) (k0_off2 k) S128x64x128.size (k0_off2_inb k)).emb (ix3 r f e) 0)
               ((Rect.unit (s := S512x64x128) (k0_off2 k) S128x64x128.size (k0_off2_inb k)).emb (ix3 r f e) 1)) := by
    show x0 ((Rect.unit (s := S512x64) (k0_off1 k) S128x64.size (k0_off1_inb k)).emb (ix2 r f)) = _
    refine congrArg x0 (funext fun a => Fin.ext ?_)
    match a with
    | ⟨0, _⟩ => show k0_off1 k (0 : Fin 2) + 1 * r.val = k0_off2 k (0 : Fin 3) + 1 * r.val; rw [a10, a20]
    | ⟨1, _⟩ => show k0_off1 k (1 : Fin 2) + 1 * f.val = k0_off2 k (1 : Fin 3) + 1 * f.val; rw [a11, a21]
  have hfe : (ix2 f e : S64x128.Idx)
      = ix2 ((Rect.unit (s := S512x64x128) (k0_off2 k) S128x64x128.size (k0_off2_inb k)).emb (ix3 r f e) 1)
            ((Rect.unit (s := S512x64x128) (k0_off2 k) S128x64x128.size (k0_off2_inb k)).emb (ix3 r f e) 2) := by
    refine funext fun a => Fin.ext ?_
    match a with
    | ⟨0, _⟩ => show f.val = k0_off2 k (1 : Fin 3) + 1 * f.val; rw [a21]; omega
    | ⟨1, _⟩ => show e.val = k0_off2 k (2 : Fin 3) + 1 * e.val; rw [a22]; omega
  exact congrArg₂ (· + ·) (congrArg₂ (· * ·) hx (congrArg w hfe)) (congrArg b hfe)

/-- WHAT THE BODY LEAVES in the output's staging buffer, from input blocks x0 (the 512 rows of x), x1 (W) and
    x2 (b): the embedding of x0. Every store of the run restricts that one function (the tables loaded
    whole are the tables, the rows loaded per trip are rows of x0), and the stores cover the block. -/
theorem block_eq (c : Dev nD) (i : grid0.Coords) (arg1 : Memref sig .tc .vmem S512x64 .f32) (harg1 : arg1.IsWhole) (arg2 : Memref sig .tc .vmem S64x128 .f32) (harg2 : arg2.IsWhole) (arg3 : Memref sig .tc .vmem S64x128 .f32) (harg3 : arg3.IsWhole) (arg4 : Memref sig .tc .vmem S512x64x128 .f32) (harg4 : arg4.IsWhole)
    (x0 : Vec Ideal S512x64 .f32) (x1 : Vec Ideal S64x128 .f32) (x2 : Vec Ideal S64x128 .f32) :
    out0_A_3 (F := Ideal) c i arg1 harg1 arg2 harg2 arg3 harg3 arg4 harg4 x0 x1 x2 = Cert.Embed.embedBlock x0 x1 x2 := by
  unfold out0_A_3
  rw [View.read_writes_eq_canon _ _ _ (cover0_A_3 c i arg1 harg1 arg2 harg2 arg3 harg3 arg4 harg4 x0 x1 x2)]
  funext y
  refine View.canon_apply_of_pieces (Cert.Embed.embedBlock x0 x1 x2) _ ?_ y (cover0_A_3 c i arg1 harg1 arg2 harg2 arg3 harg3 arg4 harg4 x0 x1 x2 y)
  rw [run_stores]
  refine stores_forall _ _ c none i arg1 harg1 arg2 harg2 arg3 harg3 arg4 harg4 _ _ _ (fun k p hp => ?_) _
  rw [trip_stores] at hp
  obtain rfl := List.mem_singleton.mp hp
  intro x
  simp only [View.readAt_eq_ld, harg1.read_unread, harg2.read_unread, harg3.read_unread, View.ld_unit_zero (S := S64x128) hz]
  exact tile_restricts x0 x1 x2 k x

end Cert.KernelIdeal.Block

end
-- ==== Proof.Rows.lean ====
/-
  From blocks to the array, and through the two reshapes around the region. The grid has 64 points; point t
  stages rows 512t .. 512t + 511 of the flat x (window 0), the whole of W and of b (windows 1 and 2), and
  writes back rows 512t .. 512t + 511 of the flat result (window 3). What it writes back is the embedding of
  its x block, that is, the rows 512t .. 512t + 511 of the embedding of the whole flat x: the block of ONE
  function of the arrays. The 64 blocks fill the 32768 rows (row r lies in block r / 512), so after the region
  the flat result is that function. Before the region the host flattens x from [16, 2048, 64] to [32768, 64],
  row (s, t) going to row 2048 s + t; after it the host unflattens the result the same way. Read at
  (s, t, f, e), the unflattened result is the flat one at row 2048 s + t, which reads the flat x at that row,
  which is x at (s, t, f).
-/
import proofs.«118321_j31928786878606_2_alg».proof.Proof.Gen.KernelIdeal.Frame
import proofs.«118321_j31928786878606_2_alg».proof.Proof.Block
import proofs.«118321_j31928786878606_2_alg».proof.Proof.Spec
import Idealize.ShloMosaic.Lib.Pipeline.Value
import Idealize.ShloMosaic.Lib.StableHlo.Run

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.Embed

/-! ## The two reshapes at an index -/

/-- Flattening [16, 2048, 64] to [32768, 64]: row 2048 s + t of the flat array is row (s, t) of the operand. -/
theorem flatten_apply {α : Type} (x : S16x2048x64.Idx → α) (h : S16x2048x64.ShapeCasts S32768x64)
    (s : Fin 16) (t : Fin 2048) (f : Fin 64) (hr : s.val * 2048 + t.val < 32768) :
    shapeCast S32768x64 x h (ix2 (⟨s.val * 2048 + t.val, hr⟩ : Fin 32768) f) = x (ix3 s t f) :=
  shapeCast_apply x h _ _ (by
    rw [Shape.rowMajor_val_three, Shape.rowMajor_val_two]
    show (s.val * 2048 + t.val) * 64 + f.val = (s.val * 2048 + t.val) * 64 + f.val
    rfl)

/-- Unflattening [32768, 64, 128] to [16, 2048, 64, 128]: entry (s, t, f, e) is the operand's at row 2048 s + t. -/
theorem unflatten_apply {α : Type} (y : S32768x64x128.Idx → α) (h : S32768x64x128.ShapeCasts S16x2048x64x128)
    (s : Fin 16) (t : Fin 2048) (f : Fin 64) (e : Fin 128) (hr : s.val * 2048 + t.val < 32768) :
    shapeCast S16x2048x64x128 y h (ix4 s t f e) = y (ix3 (⟨s.val * 2048 + t.val, hr⟩ : Fin 32768) f e) :=
  shapeCast_apply y h _ _ (by
    rw [Shape.rowMajor_val_three, Shape.rowMajor_val_four]
    show ((s.val * 2048 + t.val) * 64 + f.val) * 128 + e.val = ((s.val * 2048 + t.val) * 64 + f.val) * 128 + e.val
    rfl)

/-- So the flat embedding of the flattened x, unflattened, is the embedding of x. -/
theorem unflatten_embedRows (x : S16x2048x64.Idx → EReal) (W b : S64x128.Idx → EReal)
    (h1 : S16x2048x64.ShapeCasts S32768x64) (h2 : S32768x64x128.ShapeCasts S16x2048x64x128) :
    shapeCast S16x2048x64x128 (embedRows (shapeCast S32768x64 x h1) W b) h2 = embed x W b := by
  funext i
  obtain ⟨s, t, f, e, rfl⟩ : ∃ (s : Fin 16) (t : Fin 2048) (f : Fin 64) (e : Fin 128), i = ix4 s t f e :=
    ⟨i 0, i 1, i 2, i 3, eq_ix4 i⟩
  have hr : s.val * 2048 + t.val < 32768 := by have := s.isLt; have := t.isLt; omega
  refine (unflatten_apply _ h2 s t f e hr).trans ?_
  unfold embedRows embed
  exact congrArg₂ (· + ·) (congrArg₂ (· * ·) (flatten_apply x h1 s t f hr) rfl) rfl

/-! ## The region -/

/-- Equal factors and equal summands give equal values of a * w + b. -/
theorem mul_add_congr {a a' w w' b b' : EReal} (ha : a = a') (hw : w = w') (hb : b = b') :
    a * w + b = a' * w' + b' := by rw [ha, hw, hb]

variable (m : (ℓ : Loc nD τ sig) → Buf (Elt Ideal) ℓ) (ρ : Dev nD → PrngReg)

/-- The printed index maps over the grid: the x window and the result window are at block t along the rows,
    the two tables' windows stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The flat result as the region leaves it, in terms of the arrays as the region finds them. -/
abbrev flat (c : Dev nD) : S32768x64x128.Idx → EReal :=
  embedRows (V m c main_v0) (V m c main_arg1) (V m c main_arg2)

/-- WHAT POINT t WRITES BACK is block t of the flat embedding: entry (r, f, e) of the point's block is
    x(512 t + r, f) * W(f, e) + b(f, e), each input block read where the result block's rectangle says. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold outsAt0
  have hb := Block.block_eq c (grid0.coords t) (ms0_0 t) (hs0_0 t) (ms0_1 t) (hs0_1 t) (ms0_2 t) (hs0_2 t)
    (ms0_3 t) (hs0_3 t) (iblk m c 0 t) (iblk m c 1 t) (iblk m c 2 t)
  obtain ⟨e00, e01, e10, e11, e20, e21, e30, e31, e32⟩ := idx_facts t
  funext j
  show out0_A_3 c (grid0.coords t) (ms0_0 t) (hs0_0 t) (ms0_1 t) (hs0_1 t) (ms0_2 t) (hs0_2 t)
    (ms0_3 t) (hs0_3 t) (iblk m c 0 t) (iblk m c 1 t) (iblk m c 2 t) j = flat m c (((cfg0.win 3).blk t).view.emb j)
  refine (congrFun hb j).trans ?_
  have h0 : ((cfg0.win 0).blk t).view.emb (ix2 (j 0) (j 1))
      = ix2 (((cfg0.win 3).blk t).view.emb j 0) (((cfg0.win 3).blk t).view.emb j 1) := by
    funext a; apply Fin.ext
    match a with
    | ⟨0, _⟩ => show win0_0.index t (0 : Fin 2) * 512 + 1 * (j 0).val = win0_3.index t (0 : Fin 3) * 512 + 1 * (j 0).val; rw [e00, e30]
    | ⟨1, _⟩ => show win0_0.index t (1 : Fin 2) * 64 + 1 * (j 1).val = win0_3.index t (1 : Fin 3) * 64 + 1 * (j 1).val; rw [e01, e31]
  have h1 : ((cfg0.win 1).blk t).view.emb (ix2 (j 1) (j 2))
      = ix2 (((cfg0.win 3).blk t).view.emb j 1) (((cfg0.win 3).blk t).view.emb j 2) := by
    funext a; apply Fin.ext
    match a with
    | ⟨0, _⟩ => show win0_1.index t (0 : Fin 2) * 64 + 1 * (j 1).val = win0_3.index t (1 : Fin 3) * 64 + 1 * (j 1).val; rw [e10, e31]
    | ⟨1, _⟩ => show win0_1.index t (1 : Fin 2) * 128 + 1 * (j 2).val = win0_3.index t (2 : Fin 3) * 128 + 1 * (j 2).val; rw [e11, e32]
  have h2 : ((cfg0.win 2).blk t).view.emb (ix2 (j 1) (j 2))
      = ix2 (((cfg0.win 3).blk t).view.emb j 1) (((cfg0.win 3).blk t).view.emb j 2) := by
    funext a; apply Fin.ext
    match a with
    | ⟨0, _⟩ => show win0_2.index t (0 : Fin 2) * 64 + 1 * (j 1).val = win0_3.index t (1 : Fin 3) * 64 + 1 * (j 1).val; rw [e20, e31]
    | ⟨1, _⟩ => show win0_2.index t (1 : Fin 2) * 128 + 1 * (j 2).val = win0_3.index t (2 : Fin 3) * 128 + 1 * (j 2).val; rw [e21, e32]
  unfold embedBlock flat embedRows
  refine mul_add_congr ?_ ?_ ?_
  · show V m c main_v0 (((cfg0.win 0).blk t).view.emb (ix2 (j 0) (j 1))) = _
    rw [h0]; rfl
  · show V m c main_arg1 (((cfg0.win 1).blk t).view.emb (ix2 (j 1) (j 2))) = _
    rw [h1]; rfl
  · show V m c main_arg2 (((cfg0.win 2).blk t).view.emb (ix2 (j 1) (j 2))) = _
    rw [h2]; rfl

/-- A row index of the flat result lies in point t's block iff each coordinate is in the block's range. -/
theorem mem_blk (t : Fin cfg0.N) (i : S32768x64x128.Idx) :
    i ∈ ((cfg0.win 3).blk t).view.set ↔ ∀ a : Fin 3, win0_3.index t a * S512x64x128.size a ≤ (i a).val
      ∧ (i a).val < win0_3.index t a * S512x64x128.size a + S512x64x128.size a := by
  show i ∈ ((View.whole main_v1).slice (win0_3.rect t)).set ↔ _
  rw [View.set_slice_whole, Rect.mem_set_unit]
  exact Iff.rfl

/-- Every index of the flat result is in the block of the point its row falls in: row r in block r / 512. -/
theorem covered (i : S32768x64x128.Idx) :
    ∃ t : Fin cfg0.N, (cfg0.win 3).flush t = true ∧ i ∈ ((cfg0.win 3).blk t).view.set := by
  have hN : cfg0.N = 64 := N_0
  have hi0 : (i 0).val < 32768 := (i 0).isLt
  have hi1 : (i 1).val < 64 := (i 1).isLt
  have hi2 : (i 2).val < 128 := (i 2).isLt
  have ht : (i 0).val / 512 < cfg0.N := by rw [hN]; omega
  refine ⟨⟨(i 0).val / 512, ht⟩, flush0_3 _, ?_⟩
  obtain ⟨-, -, -, -, -, -, e30, e31, e32⟩ := idx_facts ⟨(i 0).val / 512, ht⟩
  have e30' : win0_3.index ⟨(i 0).val / 512, ht⟩ (0 : Fin 3) = (i 0).val / 512 := e30
  rw [mem_blk]
  intro a
  match a with
  | ⟨0, _⟩ =>
    show win0_3.index ⟨(i 0).val / 512, ht⟩ (0 : Fin 3) * 512 ≤ (i 0).val
      ∧ (i 0).val < win0_3.index ⟨(i 0).val / 512, ht⟩ (0 : Fin 3) * 512 + 512
    rw [e30']; omega
  | ⟨1, _⟩ =>
    show win0_3.index ⟨(i 0).val / 512, ht⟩ (1 : Fin 3) * 64 ≤ (i 1).val
      ∧ (i 1).val < win0_3.index ⟨(i 0).val / 512, ht⟩ (1 : Fin 3) * 64 + 64
    rw [e31]; omega
  | ⟨2, _⟩ =>
    show win0_3.index ⟨(i 0).val / 512, ht⟩ (2 : Fin 3) * 128 ≤ (i 2).val
      ∧ (i 2).val < win0_3.index ⟨(i 0).val / 512, ht⟩ (2 : Fin 3) * 128 + 128
    rw [e32]; omega

/-- THE FLAT RESULT after the region: the flat embedding of the arrays as the region finds them. -/
theorem final (c : Dev nD) : (dats m 0 c).arrAt 3 cfg0.N = flat m c :=
  (dats m 0 c).arrAt_eq_of_cover 3 (flat m c) (fun t _ => flushed_eq m c t) (covered)

/-! ## The host lines around the region -/

/-- The flat x the region finds is the host's reshape of the argument. -/
theorem V_flat_x (c : Dev nD) :
    (V m c main_v0 : S32768x64.Idx → EReal)
      = shapeCast S32768x64 (m ((c : Thread nD τ).loc main_arg0)) shapeCasts_S16x2048x64_S32768x64 := by
  show StableHlo.after hostOps0 (fun b => m (c, b)) (Proc.devRef .tc main_v0) = _
  after_results
  rfl

end Cert.KernelIdeal.Rows

end
-- ==== Proof.Whole.lean ====
/-
  The whole kernel program, read. Around the region the host flattens x and unflattens the result. The
  program's result is therefore the unflattening of the flat result the region leaves, which is the flat
  embedding of the flattened x; and that is the embedding of x. The three arguments end as they began: the
  tables are staged inputs the body only reads, and x is touched by no window and written by no host line.
-/
import proofs.«118321_j31928786878606_2_alg».proof.Proof.Rows

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Embed Cert.KernelIdeal.Rows

variable (m : (ℓ : Loc nD τ sig) → Buf (Elt Ideal) ℓ) (ρ : Dev nD → PrngReg)

/-- What the host line after the region returns: the embedding of the argument arrays. -/
theorem result_eq (c : Dev nD) :
    Pipeline.afterTail₀ cfgs (dats m) 0 (V0 m) [hostOps1] c main_v2
      = embed (m ((c : Thread nD τ).loc main_arg0)) (m ((c : Thread nD τ).loc main_arg1))
          (m ((c : Thread nD τ).loc main_arg2)) := by
  -- the flat result array, as the line after the region finds it
  have hA : Pipeline.withArrays (cfgs 0).spec c (V0 m c) (fun w => (dats m 0 c).arrAt w (cfgs 0).N)
      (Proc.devRef .tc main_v1) = flat m c :=
    (Pipeline.withArrays_arr spec0 launch0.win.arr_inj c _ _ 3).trans (final m c)
  unfold Pipeline.afterTail₀
  show StableHlo.after hostOps1 _ (Proc.devRef .tc main_v2) = _
  after_results
  rw [hA]
  show shapeCast S16x2048x64x128 (flat m c) shapeCasts_S32768x64x128_S16x2048x64x128 = _
  unfold flat
  rw [V_flat_x, V_main_arg1, V_main_arg2]
  exact unflatten_embedRows _ _ _ _ _

/-- THE RUN: every weakly fair execution terminates with the result at the embedding of the arguments and
    the arguments unchanged. -/
theorem run : θ_run defs (onTc (τ := τ) (main (F := Ideal))) ⟨m, fun _ => 0, ρ⟩ fun r => ∀ c : Dev nD,
      r.2.mem ((c.tc : Thread nD τ).loc main_v2)
        = embed (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.Reference.lean ====
/-
  The reference computes the embedding. jnp's x[..., None] * W + b gives x a trailing unit axis and spreads it
  over the 128 embedding positions, gives W and b two leading unit axes and spreads them over the (s, t)
  rows, multiplies and adds. Read at (s, t, f, e) each broadcast is its operand at the coordinates it kept:
  x at (s, t, f), W and b at (f, e). So the result at (s, t, f, e) is x(s, t, f) * W(f, e) + b(f, e).
-/
import proofs.«118321_j31928786878606_2_alg».proof.Proof.Gen.ReferenceIdeal.Read
import proofs.«118321_j31928786878606_2_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read Cert.Embed

/-- The reference's last stage, as a function of the three arguments, is the embedding. -/
theorem result_eq (x : S16x2048x64.Idx → EReal) (W b : S64x128.Idx → EReal) :
    val_main_v7 (F := Ideal) x W b = embed x W b := by
  funext i
  -- the coordinates each chain of two broadcasts keeps
  have h0 : idx_main_v0 (idx_main_v2 i) = ix3 (i 0) (i 1) (i 2) :=
    funext fun a => Fin.ext (by match a with | ⟨0, _⟩ => rfl | ⟨1, _⟩ => rfl | ⟨2, _⟩ => rfl)
  have h1 : idx_main_v1 (idx_main_v3 i) = ix2 (i 2) (i 3) :=
    funext fun a => Fin.ext (by match a with | ⟨0, _⟩ => rfl | ⟨1, _⟩ => rfl)
  have h2 : idx_main_v5 (idx_main_v6 i) = ix2 (i 2) (i 3) :=
    funext fun a => Fin.ext (by match a with | ⟨0, _⟩ => rfl | ⟨1, _⟩ => rfl)
  rw [val_main_v7_apply, val_main_v4_apply, val_main_v2_apply, val_main_v0_apply, val_main_v3_apply,
    val_main_v1_apply, val_main_v6_apply, val_main_v5_apply, h0, h1, h2]
  rfl

end Cert.ReferenceIdeal.RefValue

end
-- ==== Proof.lean ====
/-
  A per-feature affine embedding: for x of shape [16, 2048, 64] and tables W, b of shape [64, 128], the result
  at (s, t, f, e) is x(s, t, f) * W(f, e) + b(f, e).

  The kernel flattens the 16 * 2048 rows (s, t) into one axis of 32768, walks it in 64 blocks of 512 rows, and
  inside a block in four trips of 128 rows; each trip stores, over its rows, the tile x(r, f) * W(f, e) + b(f, e)
  with W and b spread over the rows and x over the 128 embedding positions. The four tiles of a block, and then
  the 64 blocks of the flat result, are disjoint restrictions of ONE function of the index that together fill
  their array, so the array is that function; unflattened, it is the embedding of x (Proof/Payload, Block, Rows,
  Whole). The reference spreads x over a trailing axis and W, b over two leading axes, multiplies and adds:
  read at an index it is the same expression (Proof/Reference). The two sides multiply the same two extended
  reals and add the same third, so no law of arithmetic joins them and the finiteness of the inputs is not used.

  The three frames are the generated ones (the reference's is its generated run with the result dropped), and
  the idealization rewrote nothing, so its claim is trivial.
-/
import proofs.«118321_j31928786878606_2_alg».proof.Defs
import proofs.«118321_j31928786878606_2_alg».proof.Proof.Gen.Kernel
import proofs.«118321_j31928786878606_2_alg».proof.Proof.Gen.Kernel.Skeleton
import proofs.«118321_j31928786878606_2_alg».proof.Proof.Gen.Kernel.Loops
import proofs.«118321_j31928786878606_2_alg».proof.Proof.Gen.Kernel.Launch
import proofs.«118321_j31928786878606_2_alg».proof.Proof.Gen.Kernel.Points
import proofs.«118321_j31928786878606_2_alg».proof.Proof.Gen.Kernel.Frame
import proofs.«118321_j31928786878606_2_alg».proof.Proof.Gen.KernelIdeal
import proofs.«118321_j31928786878606_2_alg».proof.Proof.Gen.KernelIdeal.Skeleton
import proofs.«118321_j31928786878606_2_alg».proof.Proof.Gen.KernelIdeal.Loops
import proofs.«118321_j31928786878606_2_alg».proof.Proof.Gen.KernelIdeal.Launch
import proofs.«118321_j31928786878606_2_alg».proof.Proof.Gen.KernelIdeal.Points
import proofs.«118321_j31928786878606_2_alg».proof.Proof.Gen.KernelIdeal.Frame
import proofs.«118321_j31928786878606_2_alg».proof.Proof.Gen.ReferenceIdeal
import proofs.«118321_j31928786878606_2_alg».proof.Proof.Gen.ReferenceIdeal.Run
import proofs.«118321_j31928786878606_2_alg».proof.Proof.Gen.ReferenceIdeal.Read
import proofs.«118321_j31928786878606_2_alg».proof.Proof.Gen.Pre_finite_inputs
import proofs.«118321_j31928786878606_2_alg».proof.Proof.Whole
import proofs.«118321_j31928786878606_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; dropping what it says of the result leaves the frame. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals both programs end with the embedding of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
